-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S3200000 : Shape := ⟨1, ![3200000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x256 .f32) (main_arg1 : IVec S2x3200000 32) (main_arg2 : FVec F S3200000 .f32) (main_arg3 : FVec F S256x64 .f32) (main_arg4 : FVec F S64 .f32) (main_arg5 : FVec F S64 .f32) (main_arg6 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x256 : Shape := ⟨2, ![100000, 256]⟩
abbrev S2x3200000 : Shape := ⟨2, ![2, 3200000]⟩
abbrev S3200000 : Shape := ⟨1, ![3200000]⟩
abbrev S256x64 : Shape := ⟨2, ![256, 64]⟩
abbrev S64 : Shape := ⟨1, ![64]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x256 : Shape := ⟨2, ![10000, 256]⟩
abbrev S10000x64 : Shape := ⟨2, ![10000, 64]⟩
abbrev S3300000x64 : Shape := ⟨2, ![3300000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 70
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S100000x64, .f32⟩
  | .local _ .vmem, ⟨0, _⟩ => ⟨S10000x256, .f32⟩
  | .local _ .vmem, ⟨1, _⟩ => ⟨S10000x256, .f32⟩
  | .local _ .vmem, ⟨2, _⟩ => ⟨S256x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x256_S256x64_S10000x64_1_0_0_1_n_n_wf : DotDims.WF S10000x256 S256x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S3200000 : Shape := ⟨1, ![3200000]⟩
abbrev S256x64 : Shape := ⟨2, ![256, 64]⟩
abbrev S64 : Shape := ⟨1, ![64]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩

abbrev nBuf : Space → Nat
  | .hbm => 105
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .i1⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000, .f32⟩
  | .hbm, ⟨78, _⟩ => ⟨S100000x1, .f32⟩
  | .hbm, ⟨79, _⟩ => ⟨S_, .f32⟩
  | .hbm, ⟨80, _⟩ => ⟨S100000x1, .f32⟩
  | .hbm, ⟨81, _⟩ => ⟨S100000x1, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000, .f32⟩
  | .hbm, ⟨87, _⟩ => ⟨S100000x1, .f32⟩
  | .hbm, ⟨88, _⟩ => ⟨S_, .f32⟩
  | .hbm, ⟨89, _⟩ => ⟨S100000x1, .f32⟩
  | .hbm, ⟨90, _⟩ => ⟨S100000x1, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x1, .f32⟩
  | .hbm, ⟨95, _⟩ => ⟨S100000x1, .f32⟩
  | .hbm, ⟨96, _⟩ => ⟨S100000x1, .f32⟩
  | .hbm, ⟨97, _⟩ => ⟨S100000x64, .f32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x64_S100000x64_1_0_0_1_n_n_wf : DotDims.WF S100000x256 S256x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.Spec.lean ====
/-
  What the result array holds, entry by entry, over the extended reals.

  The layer is  out = LayerNorm(leaky_relu(agg + b)) * gamma + beta  with  agg  the weighted sum, over the edges that
  end at a node, of the rows of the projection  h = x · W .  Two pieces of it are computed differently by the two
  programs and are stated here once, as functions of whole arrays:

  * `proj x w` : entry (r, j) of the projection is the sum over the 256 input features k of x(r, k) · w(k, j);
  * `epi A b g be` : entry (r, j) of the output depends on row r of the aggregated array A alone.  With
      y(k)  = act (A(r, k) + b(k)),      act z = z if z ≥ 0, else 0.01 · z   (the literal f32 word of 0.01),
      mean  = (Σ_k y(k)) / 64,
      var   = (Σ_k (y(k) - mean)²) / 64,
    it is  (y(j) - mean) · rsqrt (var + 1e-5) · g(j) + be(j)  (1e-5 again its literal f32 word).

  Sums are finite sums in the extended reals (a commutative monoid under +, so their order does not matter), the
  quotient, the comparison and the reciprocal square root are the extended-real ones; every literal is kept as the
  value of its word, the same word on both sides.
-/
import Idealize.ShloMosaic.PureOps.Ideal
import Idealize.ShloMosaic.Lib.ValueIdx

noncomputable section

namespace Cert.GcnSpec

open Idealize.ShloMosaic Idealize.ShloMosaic.ValueIdx

/-- Entry (r, j) of x · w : the sum over the contracted feature k. -/
def dotRow (x : (⟨2, ![100000, 256]⟩ : Shape).Idx → EReal) (w : (⟨2, ![256, 64]⟩ : Shape).Idx → EReal)
    (r : Fin 100000) (j : Fin 64) : EReal :=
  ∑ k : Fin 256, x (ix2 r k) * w (ix2 k j)

/-- The projection x · w as one array. -/
def proj (x : (⟨2, ![100000, 256]⟩ : Shape).Idx → EReal) (w : (⟨2, ![256, 64]⟩ : Shape).Idx → EReal) :
    (⟨2, ![100000, 64]⟩ : Shape).Idx → EReal :=
  fun i => dotRow x w (i 0) (i 1)

/-- The leaky rectifier: z where z ≥ 0, the slope's word times z elsewhere. -/
def act (z : EReal) : EReal :=
  Scalar.select (Ideal.cmp .oge z (Ideal.ofBits .f32 0x00000000#32)) z (Ideal.ofBits .f32 0x3C23D70A#32 * z)

/-- A row after the bias and the rectifier. -/
def rowAct (a b : Fin 64 → EReal) (k : Fin 64) : EReal := act (a k + b k)

/-- The mean of a row of 64 entries: its sum divided by the word of 64. -/
def rowMean (y : Fin 64 → EReal) : EReal := Ideal.div (∑ k : Fin 64, y k) (Ideal.ofBits .f32 0x42800000#32)

/-- The variance of a row about its mean. -/
def rowVar (y : Fin 64 → EReal) : EReal := rowMean fun k => (y k - rowMean y) * (y k - rowMean y)

/-- A row normalised, scaled and shifted, at column j. -/
def rowNorm (y g be : Fin 64 → EReal) (j : Fin 64) : EReal :=
  (y j - rowMean y) * Ideal.rsqrt (rowVar y + Ideal.ofBits .f32 0x3727C5AC#32) * g j + be j

/-- The epilogue of a whole aggregated array: row by row. -/
def epi (A : (⟨2, ![100000, 64]⟩ : Shape).Idx → EReal) (b g be : Fin 64 → EReal) :
    (⟨2, ![100000, 64]⟩ : Shape).Idx → EReal :=
  fun i => rowNorm (rowAct (fun k => A (ix2 (i 0) k)) b) g be (i 1)

theorem proj_ix2 (x : (⟨2, ![100000, 256]⟩ : Shape).Idx → EReal) (w : (⟨2, ![256, 64]⟩ : Shape).Idx → EReal)
    (r : Fin 100000) (j : Fin 64) : proj x w (ix2 r j) = dotRow x w r j := rfl

theorem epi_ix2 (A : (⟨2, ![100000, 64]⟩ : Shape).Idx → EReal) (b g be : Fin 64 → EReal) (r : Fin 100000) (j : Fin 64) :
    epi A b g be (ix2 r j) = rowNorm (rowAct (fun k => A (ix2 r k)) b) g be j := rfl

end Cert.GcnSpec

end
-- ==== Proof.Agg.lean ====
/-
  The aggregation both programs share, as a function of the projection.

  After the projection h = x · W both programs gather its rows at the edges' sources, scale each gathered row by the
  edge's symmetric normalisation and add the rows into their targets' rows.  Nothing of this is opened: it is named
  here once, as one function `aggOf h edges weights` of the projection and of the two edge arrays, built from the
  reference's own stages, so that the two programs' aggregated arrays are the same function of equal projections.
-/
import proofs.«161494_j36438502539675_1_alg».proof.Proof.RefRead

noncomputable section

namespace Cert.ReferenceIdeal.RefValue

open Cert.ReferenceIdeal Cert.ReferenceIdeal.Gen Cert.ReferenceIdeal.Read Idealize.ShloMosaic Idealize.ShloMosaic.TcCoe Idealize.SL.Sem

/-- The aggregated array: the rows of `h` at the edges' sources, each scaled by its edge's normalisation, added into
    the rows of the edges' targets. -/
def aggOf (h : FVec Ideal S100000x64 .f32) (x1 : IVec S2x3200000 32) (x2 : FVec Ideal S3200000 .f32) : FVec Ideal S100000x64 .f32 :=
  Host.scatterAdd (F := Ideal) scatter_S100000x64_S3300000x1_S3300000x64_1_0_0_1 (val_main_v43 (F := Ideal)) (val_main_v44 (F := Ideal) x1)
    (mulf (F := Ideal) (Host.gather gather_S100000x64_S3300000x1_S3300000x64_1_0_n_n_0_1_164 h (val_main_v38 (F := Ideal) x1))
      (val_main_v41 (F := Ideal) x1 x2))

/-- The reference's aggregated array is that function of its projection. -/
theorem val_main_v45_eq (x0 : (⟨S100000x256, .f32⟩ : BufTy).Contents (Elt Ideal)) (x1 : (⟨S2x3200000, .i32⟩ : BufTy).Contents (Elt Ideal))
    (x2 : (⟨S3200000, .f32⟩ : BufTy).Contents (Elt Ideal)) (x3 : (⟨S256x64, .f32⟩ : BufTy).Contents (Elt Ideal)) :
    val_main_v45 (F := Ideal) x0 x1 x2 x3 = aggOf (val_main_v32 (F := Ideal) x0 x3) x1 x2 := rfl

end Cert.ReferenceIdeal.RefValue

end
-- ==== Proof.LibBroadcastInDim.lean ====
/-
  `stablehlo.broadcast_in_dim` in its small keepdims forms, read at an index given by coordinates.

  A vector of length a set as the column [a, 1] (dims [0]) or as the row [1, a] (dims [1]); a column [a, 1] or a row
  [1, b] spread over [a, b] (dims [0, 1]); a scalar spread over any shape (dims []). In each the result at an index
  is the operand at the index with the broadcast axes dropped or set to zero.
-/
import Idealize.ShloMosaic.Lib.Pipeline.Value
import Idealize.ShloMosaic.Lib.ValueIdx

namespace Cert.LibBroadcastInDim

open Idealize.ShloMosaic Idealize.ShloMosaic.ValueIdx

variable {α : Type}

/-- A vector of length `a` set as the column `[a, 1]` reads, at `(p, u)`, the vector at `p`. -/
theorem vec_to_col_apply {a : ℕ} (dims : Fin 1 → Fin 2) (hd : dims 0 = 0)
    (h : (⟨1, ![a]⟩ : Shape).BroadcastsInDim ⟨2, ![a, 1]⟩ dims) (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else ((ix2 p u : (⟨2, ![a, 1]⟩ : Shape).Idx) (dims 0)).val
    rw [hd]
    show p.val = if a = 1 then 0 else p.val
    split
    · have := p.isLt; omega
    · rfl

/-- A vector of length `b` set as the row `[1, b]` reads, at `(u, q)`, the vector at `q`. -/
theorem vec_to_row_apply {b : ℕ} (dims : Fin 1 → Fin 2) (hd : dims 0 = 1)
    (h : (⟨1, ![b]⟩ : Shape).BroadcastsInDim ⟨2, ![1, b]⟩ dims) (v : (⟨1, ![b]⟩ : Shape).Idx → α) (u : Fin 1) (q : Fin b) :
    broadcastInDim ⟨2, ![1, b]⟩ dims h v (ix2 u q) = v (ix1 q) := by
  refine broadcastInDim_apply dims h v (ix2 u q) (ix1 q) fun ax => ?_
  match ax with
  | ⟨0, _⟩ =>
    show q.val = if b = 1 then 0 else ((ix2 u q : (⟨2, ![1, b]⟩ : Shape).Idx) (dims 0)).val
    rw [hd]
    show q.val = if b = 1 then 0 else q.val
    split
    · have := q.isLt; omega
    · rfl

/-- A column `[a, 1]` spread over `[a, b]` reads, at `(p, q)`, the column at `(p, 0)`. -/
theorem col_to_mat_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α) (p : Fin a) (q : Fin b) :
    broadcastInDim ⟨2, ![a, b]⟩ dims h v (ix2 p q) = v (ix2 p (0 : Fin 1)) := by
  refine broadcastInDim_apply dims h v (ix2 p q) (ix2 p (0 : Fin 1)) fun ax => ?_
  match ax with
  | ⟨0, _⟩ =>
    show p.val = if a = 1 then 0 else ((ix2 p q : (⟨2, ![a, b]⟩ : Shape).Idx) (dims 0)).val
    rw [hd0]
    show p.val = if a = 1 then 0 else p.val
    split
    · have := p.isLt; omega
    · rfl
  | ⟨1, _⟩ =>
    show 0 = if (1 : ℕ) = 1 then 0 else ((ix2 p q : (⟨2, ![a, b]⟩ : Shape).Idx) (dims 1)).val
    rw [if_pos rfl]

/-- A row `[1, b]` spread over `[a, b]` reads, at `(p, q)`, the row at `(0, q)`. -/
theorem row_to_mat_apply {a b : ℕ} (dims : Fin 2 → Fin 2) (hd0 : dims 0 = 0) (hd1 : dims 1 = 1)
    (h : (⟨2, ![1, b]⟩ : Shape).BroadcastsInDim ⟨2, ![a, b]⟩ dims) (v : (⟨2, ![1, b]⟩ : Shape).Idx → α) (p : Fin a) (q : Fin b) :
    broadcastInDim ⟨2, ![a, b]⟩ dims h v (ix2 p q) = v (ix2 (0 : Fin 1) q) := by
  refine broadcastInDim_apply dims h v (ix2 p q) (ix2 (0 : Fin 1) q) fun ax => ?_
  match ax with
  | ⟨0, _⟩ =>
    show 0 = if (1 : ℕ) = 1 then 0 else ((ix2 p q : (⟨2, ![a, b]⟩ : Shape).Idx) (dims 0)).val
    rw [if_pos rfl]
  | ⟨1, _⟩ =>
    show q.val = if b = 1 then 0 else ((ix2 p q : (⟨2, ![a, b]⟩ : Shape).Idx) (dims 1)).val
    rw [hd1]
    show q.val = if b = 1 then 0 else q.val
    split
    · have := q.isLt; omega
    · rfl

/-- A scalar spread over any shape reads, everywhere, the scalar. -/
theorem scalar_apply {t : Shape} (dims : Fin 0 → Fin t.rank) (h : (⟨0, ![]⟩ : Shape).BroadcastsInDim t dims)
    (v : (⟨0, ![]⟩ : Shape).Idx → α) (j : t.Idx) : broadcastInDim t dims h v j = v ix0 :=
  broadcastInDim_apply dims h v j ix0 fun ax => ax.elim0

end Cert.LibBroadcastInDim
-- ==== Proof.RefValue.lean ====
/-
  The reference's stages as the specification's functions.

  * Its projection, a host product with one contracted axis, is `proj x W`: entry (r, j) is the sum over the 256
    features k of x(r, k) · W(k, j).
  * Its epilogue is `epi` of its aggregated array.  The host operations after the aggregation are named as three
    functions of whole arrays (they ARE the reference's stages, by unfolding): the activated array `hAct A b`, the
    rows' means kept as a column `hMean y`, and the normalised, scaled and shifted array `hOut y gamma beta`.
    Read at row r:
      y(k)  = act (A(r, k) + b(k))                       (bias, comparison with zero, slope, select),
      mean  = (0 + Σ_k y(k)) / 64                        (a host sum starts from its initial value, the word of 0),
      var   = (0 + Σ_k (y(k) - mean)²) / 64,
      out(j) = (y(j) - mean) · rsqrt (var + 1e-5) · gamma(j) + beta(j);
    the keepdims columns and the parameter rows are broadcasts, read at the row's or the column's coordinate.
-/
import proofs.«161494_j36438502539675_1_alg».proof.Proof.RefRead
import proofs.«161494_j36438502539675_1_alg».proof.Proof.Spec
import proofs.«161494_j36438502539675_1_alg».proof.Proof.Agg
import proofs.«161494_j36438502539675_1_alg».proof.Proof.LibBroadcastInDim
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx Cert.GcnSpec

/-! ## The projection -/

/-- The reference's projection is `proj`. -/
theorem val_main_v32_eq (x0 : FVec Ideal S100000x256 .f32) (x3 : FVec Ideal S256x64 .f32) :
    val_main_v32 (F := Ideal) x0 x3 = proj x0 x3 := by
  funext i
  rw [val_main_v32_apply]
  show _ = dotRow x0 x3 (i 0) (i 1)
  unfold dotRow
  refine Finset.sum_congr rfl fun k _ => ?_
  have el : lidx_main_v32 i k = ix2 (i 0) k := funext fun a => Fin.ext (by match a with | ⟨0, _⟩ => rfl | ⟨1, _⟩ => rfl)
  have er : ridx_main_v32 i k = ix2 k (i 1) := funext fun a => Fin.ext (by match a with | ⟨0, _⟩ => rfl | ⟨1, _⟩ => rfl)
  rw [el, er]
  rfl

/-! ## The epilogue's host operations as three functions of whole arrays -/

/-- A parameter vector set as a 1 × 64 row and spread down the 100000 rows. -/
def rows (v : FVec Ideal S64 .f32) : FVec Ideal S100000x64 .f32 :=
  broadcastInDim S100000x64 ![0, 1] bcast_S1x64_S100000x64_0_1 (broadcastInDim S1x64 ![1] bcast_S64_S1x64_1 v)

/-- A 100000 × 1 column spread along the 64 columns. -/
def cols (v : FVec Ideal S100000x1 .f32) : FVec Ideal S100000x64 .f32 :=
  broadcastInDim S100000x64 ![0, 1] bcast_S100000x1_S100000x64_0_1 v

/-- The aggregated array after the bias and the rectifier. -/
def hAct (A : FVec Ideal S100000x64 .f32) (x4 : FVec Ideal S64 .f32) : FVec Ideal S100000x64 .f32 :=
  select (cmpf (F := Ideal) .oge (addf A (rows x4)) (broadcastInDim S100000x64 ![] bcast_S_S100000x64 (constant (F := Ideal) S_ .f32 0x00000000#32)))
    (addf A (rows x4))
    (mulf (broadcastInDim S100000x64 ![] bcast_S_S100000x64 (constant (F := Ideal) S_ .f32 0x3C23D70A#32)) (addf A (rows x4)))

/-- The rows' means kept as a column: the host sums from the word of 0, divided by the word of 64. -/
def hMean (y : FVec Ideal S100000x64 .f32) : FVec Ideal S100000x1 .f32 :=
  Host.divf (broadcastInDim S100000x1 ![0] bcast_S100000_S100000x1_0
      (Host.reduceAdd y (constant (F := Ideal) S_ .f32 0x00000000#32) reducesTo_S100000x64_S100000_d1 h_S_))
    (broadcastInDim S100000x1 ![] bcast_S_S100000x1 (constant (F := Ideal) S_ .f32 0x42800000#32))

/-- The activated array normalised row by row, scaled and shifted. -/
def hOut (y : FVec Ideal S100000x64 .f32) (x5 x6 : FVec Ideal S64 .f32) : FVec Ideal S100000x64 .f32 :=
  addf (mulf (mulf (subf y (cols (hMean y)))
        (cols (Host.rsqrt (addf (hMean (mulf (subf y (cols (hMean y))) (subf y (cols (hMean y)))))
          (broadcastInDim S100000x1 ![] bcast_S_S100000x1 (constant (F := Ideal) S_ .f32 0x3727C5AC#32))))))
      (rows x5))
    (rows x6)

section Stages

variable (x0 : FVec Ideal S100000x256 .f32) (x1 : IVec S2x3200000 32) (x2 : FVec Ideal S3200000 .f32) (x3 : FVec Ideal S256x64 .f32)
  (x4 x5 x6 : FVec Ideal S64 .f32)

/-- The reference's activated stage is `hAct` of its aggregated array. -/
theorem val_main_v53_eq : val_main_v53 (F := Ideal) x0 x1 x2 x3 x4 = hAct (val_main_v45 (F := Ideal) x0 x1 x2 x3) x4 := rfl

/-- The reference's result is `hOut` of its activated stage. -/
theorem val_main_v77_eq_hOut :
    val_main_v77 (F := Ideal) x0 x1 x2 x3 x4 x5 x6 = hOut (val_main_v53 (F := Ideal) x0 x1 x2 x3 x4) x5 x6 := rfl

end Stages

/-! ## The three functions read at an entry -/

theorem rows_apply (v : FVec Ideal S64 .f32) (r : Fin 100000) (k : Fin 64) : rows v (ix2 r k) = v (ix1 k) := by
  unfold rows
  rw [LibBroadcastInDim.row_to_mat_apply ![0, 1] rfl rfl, LibBroadcastInDim.vec_to_row_apply ![1] rfl]

theorem cols_apply (v : FVec Ideal S100000x1 .f32) (r : Fin 100000) (k : Fin 64) : cols v (ix2 r k) = v (ix2 r (0 : Fin 1)) := by
  unfold cols
  rw [LibBroadcastInDim.col_to_mat_apply ![0, 1] rfl rfl]

theorem hostRsqrt_apply {s : Shape} {φ : FTy} (a : FVec Ideal s φ) (i : s.Idx) : Host.rsqrt a i = Ideal.rsqrt (a i) := rfl

theorem hostDivf_apply {s : Shape} {φ : FTy} (a b : FVec Ideal s φ) (i : s.Idx) : Host.divf a b i = Ideal.div (a i) (b i) := rfl

theorem hAct_apply (A : FVec Ideal S100000x64 .f32) (x4 : FVec Ideal S64 .f32) (r : Fin 100000) (k : Fin 64) :
    hAct A x4 (ix2 r k) = act (A (ix2 r k) + x4 (ix1 k)) := by
  unfold hAct
  simp only [select_apply, cmpf_apply, addf_apply, mulf_apply, rows_apply, LibBroadcastInDim.scalar_apply, constant_apply]
  rfl

theorem hMean_apply (y : FVec Ideal S100000x64 .f32) (r : Fin 100000) (u : Fin 1) :
    hMean y (ix2 r u) = rowMean (fun k => y (ix2 r k)) := by
  unfold hMean
  rw [hostDivf_apply, LibBroadcastInDim.vec_to_col_apply ![0] rfl, LibBroadcastInDim.scalar_apply]
  show Ideal.div (Ideal.hostReduceAdd reducesTo_S100000x64_S100000_d1 y (Ideal.ofBits .f32 0x00000000#32) (ix1 r)) (Ideal.ofBits .f32 0x42800000#32) = _
  rw [Ideal.hostReduceAdd_single reducesTo_S100000x64_S100000_d1 (by decide), Ideal.ofBits_zero_f32, zero_add]
  unfold rowMean
  refine congrArg (Ideal.div · (Ideal.ofBits .f32 0x42800000#32)) (Finset.sum_congr rfl fun k _ => congrArg y ?_)
  exact funext fun a => Fin.ext (by match a with | ⟨0, _⟩ => rfl | ⟨1, _⟩ => rfl)

theorem hOut_apply (y : FVec Ideal S100000x64 .f32) (x5 x6 : FVec Ideal S64 .f32) (r : Fin 100000) (j : Fin 64) :
    hOut y x5 x6 (ix2 r j) = rowNorm (fun k => y (ix2 r k)) (fun k => x5 (ix1 k)) (fun k => x6 (ix1 k)) j := by
  unfold hOut
  simp only [addf_apply, mulf_apply, subf_apply, rows_apply, cols_apply, hostRsqrt_apply, hMean_apply,
    LibBroadcastInDim.scalar_apply, constant_apply]
  rfl

/-! ## The reference's result -/

/-- The reference's result array is `epi` of its aggregated array. -/
theorem val_main_v77_eq_epi (x0 : FVec Ideal S100000x256 .f32) (x1 : IVec S2x3200000 32) (x2 : FVec Ideal S3200000 .f32)
    (x3 : FVec Ideal S256x64 .f32) (x4 x5 x6 : FVec Ideal S64 .f32) :
    val_main_v77 (F := Ideal) x0 x1 x2 x3 x4 x5 x6
      = epi (val_main_v45 (F := Ideal) x0 x1 x2 x3) (fun k => x4 (ix1 k)) (fun k => x5 (ix1 k)) (fun k => x6 (ix1 k)) := by
  rw [val_main_v77_eq_hOut, val_main_v53_eq]
  generalize val_main_v45 (F := Ideal) x0 x1 x2 x3 = A
  funext i
  obtain ⟨r, j, rfl⟩ : ∃ (r : Fin 100000) (j : Fin 64), i = ix2 r j := ⟨i 0, i 1, eq_ix2 i⟩
  rw [hOut_apply, epi_ix2]
  exact congrArg (fun y => rowNorm y (fun k => x5 (ix1 k)) (fun k => x6 (ix1 k)) j) (funext fun k => hAct_apply A x4 r k)

end Cert.ReferenceIdeal.RefValue

end
-- ==== Proof.KernelRun.lean ====
/-
  The idealized kernel's run with its result named.

  @main is six segments: three stretches of host operations, the projection region, one more stretch of host
  operations, the epilogue region.  The buffer contents at each boundary are a fold through them: a stretch applies
  its operations to the contents before it; a region leaves each of its arrays at what its write-backs leave and every
  other buffer as it was.  Every weakly fair execution from a launch memory with zero counters terminates without a
  fault, and in its final state every unscoped buffer holds the last boundary's contents: in particular the result
  buffer holds the last boundary's contents at the result, and each argument its launch contents.
-/
import proofs.«161494_j36438502539675_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the six segments, its final state read at the result buffer and at the arguments: the result at the
    last boundary's contents, the arguments as launched. -/
theorem run_result : θ_run defs (onTc (τ := τ) (main (F := F))) ⟨m, fun _ => 0, ρ⟩ (fun r => ∀ c : Dev nD,
      r.2.mem ((c.tc : Thread nD τ).loc main_v49) = W6 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v49 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Gen

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.KernelMM.lean ====
/-
  The first kernel region: ten row blocks of the projection.

  Point t of the grid loads rows 10000·t … 10000·t + 9999 of x (all 256 columns) and the whole of W, and stores their
  matrix product into rows 10000·t … 10000·t + 9999 of the region's output.  At the extended reals the rounding to
  bf16 on the way in is the identity and the product into the zero accumulator is the plain finite sum, so entry
  (p, q) of a block's product is  Σ_k x(10000·t + p, k) · W(k, q):  the block is the restriction of ONE array,
  `proj x W`, to the block's rows.  The ten blocks cover all 100000 rows (row r lies in block r / 10000), hence the
  region leaves its output array at `proj x W` of the arrays it found on entry.
-/
import proofs.«161494_j36438502539675_1_alg».proof.Proof.Gen.KernelIdeal.Frame
import proofs.«161494_j36438502539675_1_alg».proof.Proof.Spec
import proofs.«161494_j36438502539675_1_alg».proof.Proof.LibDotSingle
import Idealize.ShloMosaic.Lib.Pipeline.Value
import Idealize.ShloMosaic.Lib.ValueIdx
import Idealize.ShloMosaic.PureOps.Ideal.Laws

noncomputable section

namespace Cert.KernelIdeal.Projection

open Idealize.ShloMosaic Idealize.ShloMosaic.TcCoe Idealize.SL.Sem Idealize.ShloMosaic.ValueIdx
open Idealize.ShloMosaic.Pipeline (Dat)
open Cert.KernelIdeal Cert.KernelIdeal.Gen Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-! ## The body's product at an entry -/

/-- The non-contracted axis of the left operand carries the result's row. -/
theorem lhs_row (i : S10000x64.Idx) (q : dot_S10000x256_S256x64_S10000x64_1_0_0_1_n_n.contr.Idx) :
    (dot_S10000x256_S256x64_S10000x64_1_0_0_1_n_n.lhsIdx i q 0).val = (i 0).val := by
  unfold DotDims.lhsIdx
  rw [dif_neg (show ¬(0 : Fin S10000x256.rank) ∈ dot_S10000x256_S256x64_S10000x64_1_0_0_1_n_n.lhsBatch by decide),
    dif_pos (show (0 : Fin S10000x256.rank) ∈ dot_S10000x256_S256x64_S10000x64_1_0_0_1_n_n.lhsNonContracting by decide)]
  rfl

/-- The non-contracted axis of the right operand carries the result's column. -/
theorem rhs_col (i : S10000x64.Idx) (q : dot_S10000x256_S256x64_S10000x64_1_0_0_1_n_n.contr.Idx) :
    (dot_S10000x256_S256x64_S10000x64_1_0_0_1_n_n.rhsIdx i q 1).val = (i 1).val := by
  unfold DotDims.rhsIdx
  rw [dif_neg (show ¬(1 : Fin S256x64.rank) ∈ dot_S10000x256_S256x64_S10000x64_1_0_0_1_n_n.rhsBatch by decide),
    dif_pos (show (1 : Fin S256x64.rank) ∈ dot_S10000x256_S256x64_S10000x64_1_0_0_1_n_n.rhsNonContracting by decide)]
  rfl

/-- Entry (p, q) of the body's product of a block of x and W: the sum over the 256 contracted features. -/
theorem pay_apply (x0 : FVec Ideal S10000x256 .f32) (x1 : FVec Ideal S256x64 .f32) (p : Fin 10000) (q : Fin 64) :
    k0_pay1 x0 x1 (ix2 p q) = ∑ k : Fin 256, x0 (ix2 p k) * x1 (ix2 k q) := by
  unfold k0_pay1
  refine LibDotSingle.matmul_zero_apply dot_S10000x256_S256x64_S10000x64_1_0_0_1_n_n 256 rfl rfl none
    (truncf .bf16 x0 bitsLt_bf16_f32) (truncf .bf16 x1 bitsLt_bf16_f32) (ix2 p q) (fun k => ix2 p k) (fun k => ix2 k q)
    (fun k => ?_) (fun k => ?_)
  · have hk := contrEquiv1_symm_val dot_S10000x256_S256x64_S10000x64_1_0_0_1_n_n 256 rfl rfl k
    exact funext fun a => Fin.ext (by
      match a with
      | ⟨0, _⟩ => exact lhs_row _ _
      | ⟨1, _⟩ => exact (dot_S10000x256_S256x64_S10000x64_1_0_0_1_n_n.lhsIdx_val_of_single rfl _ _).trans hk)
  · have hk := contrEquiv1_symm_val dot_S10000x256_S256x64_S10000x64_1_0_0_1_n_n 256 rfl rfl k
    exact funext fun a => Fin.ext (by
      match a with
      | ⟨0, _⟩ => exact (dot_S10000x256_S256x64_S10000x64_1_0_0_1_n_n.rhsIdx_val_of_single rfl _ _).trans hk
      | ⟨1, _⟩ => exact rhs_col _ _)

/-- The same at any index of the block. -/
theorem pay_at (x0 : FVec Ideal S10000x256 .f32) (x1 : FVec Ideal S256x64 .f32) (j : S10000x64.Idx) :
    k0_pay1 (F := Ideal) x0 x1 j = ∑ k : Fin 256, x0 (ix2 (j 0) k) * x1 (ix2 k (j 1)) :=
  (congrArg (k0_pay1 (F := Ideal) x0 x1) (eq_ix2 j)).trans (pay_apply x0 x1 (j 0) (j 1))

/-! ## From the blocks to the array -/

/-- What the region's output array ends holding: the projection of the arrays the region found. -/
def G (c : Dev nD) : S100000x64.Idx → EReal := proj (V c main_arg0) (V c main_arg3)

/-- The printed index maps over the grid: the x block and the output block sit at the same row block, every other
    block index is zero, and the row block stays below ten. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point t writes back is block t of `G`. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x64) hz]
  obtain ⟨e0, e1, e2, e3, e4, e5⟩ := idx_facts t
  funext j
  refine (pay_at (iblk0 V c 0 t) (iblk0 V c 1 t) j).trans ?_
  show _ = dotRow (V c main_arg0) (V c main_arg3) ((((cfg0.win 2).blk t).view.emb j) 0) ((((cfg0.win 2).blk t).view.emb j) 1)
  unfold dotRow
  refine Finset.sum_congr rfl fun k _ => ?_
  have hx : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; rw [e0]
    | ⟨1, _⟩ => show win0_0.index t (1 : Fin 2) * 256 + 1 * k.val = k.val; rw [e1]; omega
  have hw : iblk0 V c 1 t (ix2 k (j 1)) = V c main_arg3 (ix2 k ((((cfg0.win 2).blk t).view.emb j) 1)) := by
    show V c main_arg3 (((cfg0.win 1).blk t).view.emb (ix2 k (j 1))) = _
    refine congrArg (V c main_arg3) (funext fun a => Fin.ext ?_)
    match a with
    | ⟨0, _⟩ => show win0_1.index t (0 : Fin 2) * 256 + 1 * k.val = k.val; rw [e2]; omega
    | ⟨1, _⟩ => show win0_1.index t (1 : Fin 2) * 64 + 1 * (j 1).val = win0_2.index t (1 : Fin 2) * 64 + 1 * (j 1).val; rw [e3, e4]
  rw [hx, hw]

/-- An index of the array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Row r lies in the block of point r / 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The region's output array after the region: the projection of the arrays it found. -/
theorem final (c : Dev nD) : (dat0 V c).arrAt 2 cfg0.N = G V c :=
  (dat0 V c).arrAt_eq_of_cover 2 (G V c) (fun t _ => flushed_eq V c t) cover

end Cert.KernelIdeal.Projection

end
-- ==== Proof.LibKeepdims.lean ====
/-
  A vector kept as a column: the two layout operations a reduction with kept dimensions prints, read at an index
  given by coordinates.

  A row reduction of an `[a, b]` matrix leaves a vector of length `a`; to set it against the matrix again it is cast
  to the column `[a, 1]` and that column is broadcast along the rows to `[a, b]`. At `(i, j)` the result is the
  vector's entry `i`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- A vector of length `a` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast along the rows reads, at `(i, j)`, the vector at `i`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

end Cert.LibKeepdims
-- ==== Proof.KernelEpi.lean ====
/-
  The second kernel region: ten row blocks of the epilogue.

  Point t loads rows 10000·t … 10000·t + 9999 of the aggregated array A and the three parameter rows b, gamma, beta
  (each kept as a 1 × 64 array), and stores the epilogue of those rows into the same rows of the output.  Entry
  (p, q) of a block's result depends on row p of the block alone: with  y(k) = act (A(p, k) + b(k)),
  mean = (Σ_k y(k)) / 64  and  var = (Σ_k (y(k) - mean)²) / 64  it is
  (y(q) - mean) · rsqrt (var + 1e-5) · gamma(q) + beta(q).   Reading the body's vector operations at an entry:
  the pointwise ones entry by entry, a 1 × 64 row broadcast down the rows at its column, a lane sum as the finite sum
  over the 64 columns, and a row's sum kept as a 10000 × 1 column and broadcast back along the row at that row.
  So each block is the restriction of ONE array, `epi A b gamma beta`, and the ten blocks cover the 100000 rows.
-/
import proofs.«161494_j36438502539675_1_alg».proof.Proof.Gen.KernelIdeal.Frame
import proofs.«161494_j36438502539675_1_alg».proof.Proof.Spec
import proofs.«161494_j36438502539675_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Epilogue

open Idealize.ShloMosaic Idealize.ShloMosaic.TcCoe Idealize.SL.Sem Idealize.ShloMosaic.ValueIdx
open Idealize.ShloMosaic.Pipeline (Dat)
open Cert.KernelIdeal Cert.KernelIdeal.Gen Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-! ## The body's vector operations read at an entry -/

theorem rsqrt_apply {s : Shape} {φ : FTy} (a : FVec Ideal s φ) (i : s.Idx) : rsqrt a i = Ideal.rsqrt (a i) := rfl

/-- A lane sum of a 10000 × 64 block at row p: the sum over the 64 columns. -/
theorem rowSum_apply (src : FVec Ideal S10000x64 .f32) (h : S10000x64.Reduces [1] S10000) (hφ : FKind.Formats .f32)
    (hacc : (0x00000000#32 : BitVec 32) = FKind.add.neutral .f32 hφ) (p : Fin 10000) :
    multiReduction .add [1] S10000 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  exact funext fun a => Fin.ext (by match a with | ⟨0, _⟩ => rfl | ⟨1, _⟩ => rfl)

/-- The block after the bias and the rectifier, as the body computes it. -/
def actBlk (x0 : FVec Ideal S10000x64 .f32) (b : FVec Ideal S1x64 .f32) : FVec Ideal S10000x64 .f32 :=
  select (cmpf .oge (addf (shapeCast S10000x64 x0 shapeCasts_S10000x64_S10000x64) (broadcastTo S10000x64 (shapeCast S1x64 b shapeCasts_S1x64_S1x64) broadcasts_S1x64_S10000x64)) (broadcast S10000x64 (Scalar.ofBits .f32 0x00000000#32)))
    (addf (shapeCast S10000x64 x0 shapeCasts_S10000x64_S10000x64) (broadcastTo S10000x64 (shapeCast S1x64 b shapeCasts_S1x64_S1x64) broadcasts_S1x64_S10000x64))
    (mulf (broadcast S10000x64 (Scalar.ofBits .f32 0x3C23D70A#32)) (addf (shapeCast S10000x64 x0 shapeCasts_S10000x64_S10000x64) (broadcastTo S10000x64 (shapeCast S1x64 b shapeCasts_S1x64_S1x64) broadcasts_S1x64_S10000x64)))

/-- The rows' means kept as a column, as the body computes them: the lane sums divided by the word of 64. -/
def meanCol (y : FVec Ideal S10000x64 .f32) : FVec Ideal S10000x1 .f32 :=
  divf (shapeCast S10000x1 (multiReduction .add [1] S10000 y 0x00000000#32 reduces_S10000x64_S10000 (.inl rfl) rfl) shapeCasts_S10000_S10000x1)
    (broadcast S10000x1 (Scalar.ofBits .f32 0x42800000#32))

/-- The body's result over those two names. -/
theorem pay_eq (x0 : FVec Ideal S10000x64 .f32) (b g be : FVec Ideal S1x64 .f32) :
    k1_pay1 x0 b g be
      = addf (mulf (mulf (subf (actBlk x0 b) (broadcastTo S10000x64 (meanCol (actBlk x0 b)) broadcasts_S10000x1_S10000x64))
            (broadcastTo S10000x64 (rsqrt (addf (meanCol (mulf (subf (actBlk x0 b) (broadcastTo S10000x64 (meanCol (actBlk x0 b)) broadcasts_S10000x1_S10000x64)) (subf (actBlk x0 b) (broadcastTo S10000x64 (meanCol (actBlk x0 b)) broadcasts_S10000x1_S10000x64))))
              (broadcast S10000x1 (Scalar.ofBits .f32 0x3727C5AC#32)))) broadcasts_S10000x1_S10000x64))
          (broadcastTo S10000x64 (shapeCast S1x64 g shapeCasts_S1x64_S1x64) broadcasts_S1x64_S10000x64))
        (broadcastTo S10000x64 (shapeCast S1x64 be shapeCasts_S1x64_S1x64) broadcasts_S1x64_S10000x64) := rfl

theorem actBlk_apply (x0 : FVec Ideal S10000x64 .f32) (b : FVec Ideal S1x64 .f32) (p : Fin 10000) (q : Fin 64) :
    actBlk x0 b (ix2 p q) = act (x0 (ix2 p q) + b (ix2 (0 : Fin 1) q)) := by
  unfold actBlk
  simp only [shapeCast_self, select_apply, cmpf_apply, addf_apply, mulf_apply, broadcast_apply, broadcastTo_1b_ab_apply]
  rfl

theorem meanCol_apply (y : FVec Ideal S10000x64 .f32) (p : Fin 10000) (u : Fin 1) :
    meanCol y (ix2 p u) = rowMean (fun k => y (ix2 p k)) := by
  unfold meanCol
  show Ideal.div (shapeCast S10000x1 (multiReduction .add [1] S10000 y 0x00000000#32 reduces_S10000x64_S10000 (.inl rfl) rfl) shapeCasts_S10000_S10000x1 (ix2 p u)) (Ideal.ofBits .f32 0x42800000#32) = _
  rw [LibKeepdims.shapeCast_a_a1_apply]
  exact congrArg (Ideal.div · (Ideal.ofBits .f32 0x42800000#32)) (rowSum_apply y _ _ _ p)

/-- Entry (p, q) of the body's result on a block: the row's normalisation at column q. -/
theorem pay_apply (x0 : FVec Ideal S10000x64 .f32) (b g be : FVec Ideal S1x64 .f32) (p : Fin 10000) (q : Fin 64) :
    k1_pay1 (F := Ideal) x0 b g be (ix2 p q)
      = rowNorm (rowAct (fun k => x0 (ix2 p k)) (fun k => b (ix2 (0 : Fin 1) k))) (fun k => g (ix2 (0 : Fin 1) k))
          (fun k => be (ix2 (0 : Fin 1) k)) q := by
  rw [pay_eq]
  simp only [addf_apply, mulf_apply, subf_apply, rsqrt_apply, broadcast_apply, shapeCast_self, broadcastTo_1b_ab_apply,
    LibKeepdims.broadcastTo_a1_ab_apply, meanCol_apply, actBlk_apply]
  rfl

/-- The same at any index of the block. -/
theorem pay_at (x0 : FVec Ideal S10000x64 .f32) (b g be : FVec Ideal S1x64 .f32) (j : S10000x64.Idx) :
    k1_pay1 (F := Ideal) x0 b g be j
      = rowNorm (rowAct (fun k => x0 (ix2 (j 0) k)) (fun k => b (ix2 (0 : Fin 1) k))) (fun k => g (ix2 (0 : Fin 1) k))
          (fun k => be (ix2 (0 : Fin 1) k)) (j 1) :=
  (congrArg (k1_pay1 (F := Ideal) x0 b g be) (eq_ix2 j)).trans (pay_apply x0 b g be (j 0) (j 1))

/-- Equal rows, parameters and column give equal normalised entries. -/
theorem rowNorm_congr {a a' b b' g g' be be' : Fin 64 → EReal} {j j' : Fin 64} (ha : ∀ k, a k = a' k)
    (hb : ∀ k, b k = b' k) (hg : ∀ k, g k = g' k) (hbe : ∀ k, be k = be' k) (hj : j = j') :
    rowNorm (rowAct a b) g be j = rowNorm (rowAct a' b') g' be' j' := by
  rw [funext ha, funext hb, funext hg, funext hbe, hj]

/-! ## From the blocks to the array -/

/-- What the region's output array ends holding: the epilogue of the arrays the region found. -/
def G (c : Dev nD) : S100000x64.Idx → EReal :=
  epi (V c main_v45) (fun k => V c main_v46 (ix2 (0 : Fin 1) k)) (fun k => V c main_v47 (ix2 (0 : Fin 1) k))
    (fun k => V c main_v48 (ix2 (0 : Fin 1) k))

/-- The printed index maps over the grid: the input block and the output block sit at the same row block, every
    other block index is zero. -/
theorem idx_facts : ∀ t : Fin cfg1.N, win1_0.index t (0 : Fin 2) = win1_4.index t (0 : Fin 2)
    ∧ win1_0.index t (1 : Fin 2) = 0 ∧ win1_4.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Every row block is some point's. -/
theorem idx_onto : ∀ q0 : Fin 10, ∃ t : Fin cfg1.N, win1_4.index t = ![q0.val, 0] :=
  (by decide +kernel : ∀ q0 : Fin 10, ∃ t : Fin grid1.N, win1_4.index t = ![q0.val, 0])

/-- What point t writes back is block t of `G`. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S10000x64) hz, View.ld_unit_zero (S := S1x64) hz]
  obtain ⟨e0, e1, e2, e3, e4, e5, e6, e7, e8⟩ := idx_facts t
  funext j
  refine (pay_at (iblk1 V c 0 t) (iblk1 V c 1 t) (iblk1 V c 2 t) (iblk1 V c 3 t) j).trans ?_
  show _ = rowNorm (rowAct (fun k => V c main_v45 (ix2 ((((cfg1.win 4).blk t).view.emb j) 0) k)) (fun k => V c main_v46 (ix2 (0 : Fin 1) k)))
    (fun k => V c main_v47 (ix2 (0 : Fin 1) k)) (fun k => V c main_v48 (ix2 (0 : Fin 1) k)) ((((cfg1.win 4).blk t).view.emb j) 1)
  refine rowNorm_congr (fun k => ?_) (fun k => ?_) (fun k => ?_) (fun k => ?_) ?_
  · show V c main_v45 (((cfg1.win 0).blk t).view.emb (ix2 (j 0) k)) = _
    refine congrArg (V c main_v45) (funext fun a => Fin.ext ?_)
    match a with
    | ⟨0, _⟩ => show win1_0.index t (0 : Fin 2) * 10000 + 1 * (j 0).val = win1_4.index t (0 : Fin 2) * 10000 + 1 * (j 0).val; rw [e0]
    | ⟨1, _⟩ => show win1_0.index t (1 : Fin 2) * 64 + 1 * k.val = k.val; rw [e1]; omega
  · show V c main_v46 (((cfg1.win 1).blk t).view.emb (ix2 (0 : Fin 1) k)) = _
    refine congrArg (V c main_v46) (funext fun a => Fin.ext ?_)
    match a with
    | ⟨0, _⟩ => show win1_1.index t (0 : Fin 2) * 1 + 1 * 0 = 0; rw [e3]
    | ⟨1, _⟩ => show win1_1.index t (1 : Fin 2) * 64 + 1 * k.val = k.val; rw [e4]; omega
  · show V c main_v47 (((cfg1.win 2).blk t).view.emb (ix2 (0 : Fin 1) k)) = _
    refine congrArg (V c main_v47) (funext fun a => Fin.ext ?_)
    match a with
    | ⟨0, _⟩ => show win1_2.index t (0 : Fin 2) * 1 + 1 * 0 = 0; rw [e5]
    | ⟨1, _⟩ => show win1_2.index t (1 : Fin 2) * 64 + 1 * k.val = k.val; rw [e6]; omega
  · show V c main_v48 (((cfg1.win 3).blk t).view.emb (ix2 (0 : Fin 1) k)) = _
    refine congrArg (V c main_v48) (funext fun a => Fin.ext ?_)
    match a with
    | ⟨0, _⟩ => show win1_3.index t (0 : Fin 2) * 1 + 1 * 0 = 0; rw [e7]
    | ⟨1, _⟩ => show win1_3.index t (1 : Fin 2) * 64 + 1 * k.val = k.val; rw [e8]; omega
  · apply Fin.ext
    show (j 1).val = win1_4.index t (1 : Fin 2) * 64 + 1 * (j 1).val
    rw [e2]; omega

/-- An index of the array is in point t's block iff each coordinate is in the block's range on its axis. -/
theorem mem_blk (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v49).slice (win1_4.rect t)).set ↔ _
  rw [View.set_slice_whole, Rect.mem_set_unit]
  exact Iff.rfl

/-- Row r lies in the block of point r / 10000. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- The region's output array after the region: the epilogue of the arrays it found. -/
theorem final (c : Dev nD) : (dat1 V c).arrAt 4 cfg1.N = G V c :=
  (dat1 V c).arrAt_eq_of_cover 4 (G V c) (fun t _ => flushed_eq V c t) cover

end Cert.KernelIdeal.Epilogue

end
-- ==== Proof.KernelValue.lean ====
/-
  What the idealized kernel's result buffer holds, as one function of the argument arrays.

  Reading the boundary contents backwards from the result:
  * the epilogue region leaves its output array at `epi` of the aggregated array and of the three parameter rows it
    found on entry (the ten row blocks cover the array);
  * on its entry the parameter rows are the vectors b, gamma, beta kept as 1 × 64 arrays, and the aggregated array is
    the shared aggregation of the projection region's output array and of the edge arrays computed before that region
    (the sources, the targets and the edges' normalisation), none of which the projection region writes;
  * the projection region leaves its output array at the projection of the arguments x and W (its ten row blocks
    cover it), the arguments unwritten by the host operations before it.
  So the result is  epi (aggOf (proj x W) edges weights) b gamma beta.
-/
import proofs.«161494_j36438502539675_1_alg».proof.Proof.Gen.KernelIdeal.Frame
import proofs.«161494_j36438502539675_1_alg».proof.Proof.KernelMM
import proofs.«161494_j36438502539675_1_alg».proof.Proof.KernelEpi
import proofs.«161494_j36438502539675_1_alg».proof.Proof.Agg
import Idealize.ShloMosaic.Lib.StableHlo.Run
import Idealize.ShloMosaic.Lib.ValueLayout

set_option maxRecDepth 16384

noncomputable section

namespace Cert.KernelIdeal.Result

open Idealize.ShloMosaic Idealize.ShloMosaic.TcCoe Idealize.SL.Sem Idealize.ShloMosaic.ValueIdx Idealize.ShloMosaic.StableHlo
open Cert.KernelIdeal Cert.KernelIdeal.Gen Cert.GcnSpec
open Cert.ReferenceIdeal.RefValue (aggOf)

variable (m : (ℓ : Loc nD τ sig) → Buf (Elt Ideal) ℓ) (ρ : Dev nD → PrngReg)

/-! ## Before the projection region: the arguments as launched, the edge arrays as the reference's stages -/

set_option maxHeartbeats 4000000 in
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

set_option maxHeartbeats 4000000 in
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

set_option maxHeartbeats 4000000 in
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

set_option maxHeartbeats 4000000 in
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

set_option maxHeartbeats 4000000 in
theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl

set_option maxHeartbeats 4000000 in
/-- The edges' sources followed by the self-loops. -/
theorem W3_src (c : Dev nD) : W3 m ρ c (Proc.devRef .tc main_v3)
    = Cert.ReferenceIdeal.Read.val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp <;> rfl

set_option maxHeartbeats 4000000 in
/-- The edges' targets followed by the self-loops. -/
theorem W3_dst (c : Dev nD) : W3 m ρ c (Proc.devRef .tc main_v6)
    = Cert.ReferenceIdeal.Read.val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp <;> rfl

/-! The edges' normalisation is computed over the three stretches; it is read one stretch at a time, each from ANY
    contents that hold what the stretch reads. -/

set_option maxHeartbeats 4000000 in
/-- The third stretch: the normalisation from the sources, the targets, the weights and the inverse square-root degrees. -/
theorem norm_of (V : Valuation τ sig (Elt Ideal)) (x1 : IVec S2x3200000 32) (x2 : FVec Ideal S3200000 .f32)
    (h3 : V (Proc.devRef .tc main_v3) = Cert.ReferenceIdeal.Read.val_main_v3 (F := Ideal) x1)
    (h6 : V (Proc.devRef .tc main_v6) = Cert.ReferenceIdeal.Read.val_main_v6 (F := Ideal) x1)
    (h8 : V (Proc.devRef .tc main_v8) = Cert.ReferenceIdeal.Read.val_main_v8 (F := Ideal) x2)
    (h15 : V (Proc.devRef .tc main_v15) = Cert.ReferenceIdeal.Read.val_main_v15 (F := Ideal) x1 x2) :
    StableHlo.after hostOps0_2 V (Proc.devRef .tc main_v31) = Cert.ReferenceIdeal.Read.val_main_v31 (F := Ideal) x1 x2 := by
  after_results_simp
  rw [h3, h6, h8, h15]
  rfl

set_option maxHeartbeats 4000000 in
/-- The second stretch: the inverse square-root degrees, zero where the degree is not positive. -/
theorem dinv_of (V : Valuation τ sig (Elt Ideal)) (x1 : IVec S2x3200000 32) (x2 : FVec Ideal S3200000 .f32)
    (h13 : V (Proc.devRef .tc main_v13) = Cert.ReferenceIdeal.Read.val_main_v13 (F := Ideal) x1 x2)
    (h14 : V (Proc.devRef .tc main_v14) = Cert.ReferenceIdeal.Read.val_main_v14 (F := Ideal) x1 x2)
    (hc : V (Proc.devRef .tc main_cst_2) = Cert.ReferenceIdeal.Read.val_main_cst_2 (F := Ideal)) :
    StableHlo.after hostOps0_1 V (Proc.devRef .tc main_v15) = Cert.ReferenceIdeal.Read.val_main_v15 (F := Ideal) x1 x2 := by
  after_results_simp
  simp only [TRef.toBuf, TRef.ofBuf, cast_eq]
  rw [h13, h14, hc]
  rfl

set_option maxHeartbeats 4000000 in
/-- The second stretch writes none of the edge arrays. -/
theorem keep_of (V : Valuation τ sig (Elt Ideal)) :
    StableHlo.after hostOps0_1 V (Proc.devRef .tc main_v3) = V (Proc.devRef .tc main_v3)
    ∧ StableHlo.after hostOps0_1 V (Proc.devRef .tc main_v6) = V (Proc.devRef .tc main_v6)
    ∧ StableHlo.after hostOps0_1 V (Proc.devRef .tc main_v8) = V (Proc.devRef .tc main_v8) := by
  refine ⟨?_, ?_, ?_⟩ <;> after_results_simp

set_option maxHeartbeats 4000000 in
theorem W1_v3 (c : Dev nD) : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  after_results_simp <;> rfl

set_option maxHeartbeats 4000000 in
theorem W1_v6 (c : Dev nD) : W1 m ρ c (Proc.devRef .tc main_v6)
    = Cert.ReferenceIdeal.Read.val_main_v6 (F := Ideal) (m ((c : Thread nD τ).loc main_arg1)) := by
  show StableHlo.after hostOps0 (W0 m ρ c) (Proc.devRef .tc main_v6) = _
  after_results_simp <;> rfl

set_option maxHeartbeats 4000000 in
theorem W1_v8 (c : Dev nD) : W1 m ρ c (Proc.devRef .tc main_v8)
    = Cert.ReferenceIdeal.Read.val_main_v8 (F := Ideal) (m ((c : Thread nD τ).loc main_arg2)) := by
  show StableHlo.after hostOps0 (W0 m ρ c) (Proc.devRef .tc main_v8) = _
  after_results_simp <;> rfl

set_option maxHeartbeats 4000000 in
/-- The degrees' positivity mask. -/
theorem W1_v13 (c : Dev nD) : W1 m ρ c (Proc.devRef .tc main_v13)
    = Cert.ReferenceIdeal.Read.val_main_v13 (F := Ideal) (m ((c : Thread nD τ).loc main_arg1)) (m ((c : Thread nD τ).loc main_arg2)) := by
  show StableHlo.after hostOps0 (W0 m ρ c) (Proc.devRef .tc main_v13) = _
  after_results_simp <;> rfl

set_option maxHeartbeats 4000000 in
/-- The degrees' reciprocal square roots. -/
theorem W1_v14 (c : Dev nD) : W1 m ρ c (Proc.devRef .tc main_v14)
    = Cert.ReferenceIdeal.Read.val_main_v14 (F := Ideal) (m ((c : Thread nD τ).loc main_arg1)) (m ((c : Thread nD τ).loc main_arg2)) := by
  show StableHlo.after hostOps0 (W0 m ρ c) (Proc.devRef .tc main_v14) = _
  after_results_simp <;> rfl

set_option maxHeartbeats 4000000 in
theorem W1_cst_2 (c : Dev nD) : W1 m ρ c (Proc.devRef .tc main_cst_2) = Cert.ReferenceIdeal.Read.val_main_cst_2 (F := Ideal) := by
  show StableHlo.after hostOps0 (W0 m ρ c) (Proc.devRef .tc main_cst_2) = _
  after_results_simp <;> rfl

/-- The edges' symmetric normalisation. -/
theorem W3_norm (c : Dev nD) : W3 m ρ c (Proc.devRef .tc main_v31)
    = Cert.ReferenceIdeal.Read.val_main_v31 (F := Ideal) (m ((c : Thread nD τ).loc main_arg1)) (m ((c : Thread nD τ).loc main_arg2)) :=
  norm_of (W2 m ρ c) _ _ ((keep_of (W1 m ρ c)).1.trans (W1_v3 m ρ c)) ((keep_of (W1 m ρ c)).2.1.trans (W1_v6 m ρ c))
    ((keep_of (W1 m ρ c)).2.2.trans (W1_v8 m ρ c)) (dinv_of (W1 m ρ c) _ _ (W1_v13 m ρ c) (W1_v14 m ρ c) (W1_cst_2 m ρ c))

/-! ## After the projection region -/

/-- The projection region leaves its output at the projection of x and W. -/
theorem W4_proj (c : Dev nD) : W4 m ρ c (Proc.devRef .tc main_v32)
    = proj (m ((c : Thread nD τ).loc main_arg0)) (m ((c : Thread nD τ).loc main_arg3)) := by
  refine (W4_arr m ρ c 2).trans ((Projection.final (V3 m ρ) c).trans ?_)
  unfold Projection.G
  show proj (W3 m ρ c (Proc.devRef .tc main_arg0)) (W3 m ρ c (Proc.devRef .tc main_arg3)) = _
  rw [W3_arg0, W3_arg3]

theorem W4_src (c : Dev nD) : W4 m ρ c (Proc.devRef .tc main_v3)
    = Cert.ReferenceIdeal.Read.val_main_v3 (F := Ideal) (m ((c : Thread nD τ).loc main_arg1)) :=
  (W4_of_ne m ρ c main_v3 (by decide)).trans (W3_src m ρ c)

theorem W4_dst (c : Dev nD) : W4 m ρ c (Proc.devRef .tc main_v6)
    = Cert.ReferenceIdeal.Read.val_main_v6 (F := Ideal) (m ((c : Thread nD τ).loc main_arg1)) :=
  (W4_of_ne m ρ c main_v6 (by decide)).trans (W3_dst m ρ c)

theorem W4_norm (c : Dev nD) : W4 m ρ c (Proc.devRef .tc main_v31)
    = Cert.ReferenceIdeal.Read.val_main_v31 (F := Ideal) (m ((c : Thread nD τ).loc main_arg1)) (m ((c : Thread nD τ).loc main_arg2)) :=
  (W4_of_ne m ρ c main_v31 (by decide)).trans (W3_norm m ρ c)

theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)

/-! ## On entry to the epilogue region -/

set_option maxHeartbeats 4000000 in
/-- The aggregated array: the shared aggregation of the projection. -/
theorem W5_agg (c : Dev nD) : W5 m ρ c (Proc.devRef .tc main_v45)
    = aggOf (proj (m ((c : Thread nD τ).loc main_arg0)) (m ((c : Thread nD τ).loc main_arg3)))
        (m ((c : Thread nD τ).loc main_arg1)) (m ((c : Thread nD τ).loc main_arg2)) := by
  show StableHlo.after hostOps1 (W4 m ρ c) (Proc.devRef .tc main_v45) = _
  after_results_simp
  rw [W4_proj, W4_src, W4_dst, W4_norm]
  rfl

set_option maxHeartbeats 4000000 in
theorem W5_b (c : Dev nD) : W5 m ρ c (Proc.devRef .tc main_v46)
    = shapeCast S1x64 (m ((c : Thread nD τ).loc main_arg4)) shapeCasts_S64_S1x64 := by
  show StableHlo.after hostOps1 (W4 m ρ c) (Proc.devRef .tc main_v46) = _
  after_results_simp
  rw [W4_arg4]
  rfl

set_option maxHeartbeats 4000000 in
theorem W5_gamma (c : Dev nD) : W5 m ρ c (Proc.devRef .tc main_v47)
    = shapeCast S1x64 (m ((c : Thread nD τ).loc main_arg5)) shapeCasts_S64_S1x64 := by
  show StableHlo.after hostOps1 (W4 m ρ c) (Proc.devRef .tc main_v47) = _
  after_results_simp
  rw [W4_arg5]
  rfl

set_option maxHeartbeats 4000000 in
theorem W5_beta (c : Dev nD) : W5 m ρ c (Proc.devRef .tc main_v48)
    = shapeCast S1x64 (m ((c : Thread nD τ).loc main_arg6)) shapeCasts_S64_S1x64 := by
  show StableHlo.after hostOps1 (W4 m ρ c) (Proc.devRef .tc main_v48) = _
  after_results_simp
  rw [W4_arg6]
  rfl

/-! ## The result -/

/-- The result array as one function of the arguments. -/
def result (c : Dev nD) : S100000x64.Idx → EReal :=
  epi (aggOf (proj (m ((c : Thread nD τ).loc main_arg0)) (m ((c : Thread nD τ).loc main_arg3)))
        (m ((c : Thread nD τ).loc main_arg1)) (m ((c : Thread nD τ).loc main_arg2)))
    (fun k => (m ((c : Thread nD τ).loc main_arg4) : S64.Idx → EReal) (ix1 k))
    (fun k => (m ((c : Thread nD τ).loc main_arg5) : S64.Idx → EReal) (ix1 k))
    (fun k => (m ((c : Thread nD τ).loc main_arg6) : S64.Idx → EReal) (ix1 k))

/-- The last boundary's contents at the result buffer. -/
theorem W6_result (c : Dev nD) : W6 m ρ c (Proc.devRef .tc main_v49) = result m c := by
  refine (W6_arr m ρ c 4).trans ((Epilogue.final (V5 m ρ) c).trans ?_)
  unfold Epilogue.G result
  show epi (W5 m ρ c (Proc.devRef .tc main_v45)) (fun k => W5 m ρ c (Proc.devRef .tc main_v46) (ix2 (0 : Fin 1) k))
    (fun k => W5 m ρ c (Proc.devRef .tc main_v47) (ix2 (0 : Fin 1) k)) (fun k => W5 m ρ c (Proc.devRef .tc main_v48) (ix2 (0 : Fin 1) k)) = _
  rw [W5_agg, W5_b, W5_gamma, W5_beta]
  simp only [shapeCast_a_1a_apply]

end Cert.KernelIdeal.Result

end
-- ==== Proof.lean ====
/-
  The five claims about a graph-convolution layer computed two ways.

  The kernel program computes  out = LayerNorm(leaky_relu(agg + b)) · gamma + beta  with the dense projection
  h = x · W and the epilogue in two tiled kernel regions and the irregular gather / scatter-add aggregation between
  them on the host; the reference computes all of it on the host.

  * The three frames: each program terminates without a fault and leaves its arguments unchanged (the kernel
    programs' by their run over the segments of @main, the reference's by its run as a list of host operations).
  * The idealized kernel is the printed kernel read at the extended reals: no rewrite was applied.
  * At the extended reals the two results are equal.  The kernel's result buffer ends at
      epi (aggOf (proj x W) edges weights) b gamma beta
    (the projection region's ten row blocks are the restrictions of the one array `proj x W`; the host aggregation
    between the regions is the shared function `aggOf`; the epilogue region's ten row blocks are the restrictions
    of `epi` of the aggregated array), and the reference's result is the same expression: its host product is
    `proj x W` (the same finite sum over the 256 contracted features), its aggregation is `aggOf` by definition, and
    its epilogue, read stage by stage at a row, is `epi`.  The only laws used are that a sum into a zero accumulator
    is the sum and that a host sum from the initial value 0 is the sum: the inputs' finiteness is not needed.
-/
import proofs.«161494_j36438502539675_1_alg».proof.Defs
import proofs.«161494_j36438502539675_1_alg».proof.Proof.Gen.Kernel
import proofs.«161494_j36438502539675_1_alg».proof.Proof.Gen.Kernel.Skeleton
import proofs.«161494_j36438502539675_1_alg».proof.Proof.Gen.Kernel.Launch
import proofs.«161494_j36438502539675_1_alg».proof.Proof.Gen.Kernel.Points
import proofs.«161494_j36438502539675_1_alg».proof.Proof.Gen.Kernel.Frame
import proofs.«161494_j36438502539675_1_alg».proof.Proof.Gen.KernelIdeal
import proofs.«161494_j36438502539675_1_alg».proof.Proof.Gen.KernelIdeal.Skeleton
import proofs.«161494_j36438502539675_1_alg».proof.Proof.Gen.KernelIdeal.Launch
import proofs.«161494_j36438502539675_1_alg».proof.Proof.Gen.KernelIdeal.Points
import proofs.«161494_j36438502539675_1_alg».proof.Proof.Gen.KernelIdeal.Frame
import proofs.«161494_j36438502539675_1_alg».proof.Proof.Gen.ReferenceIdeal
import proofs.«161494_j36438502539675_1_alg».proof.Proof.Gen.Pre_finite_inputs
import proofs.«161494_j36438502539675_1_alg».proof.Proof.RefRun
import proofs.«161494_j36438502539675_1_alg».proof.Proof.RefRead
import proofs.«161494_j36438502539675_1_alg».proof.Proof.RefValue
import proofs.«161494_j36438502539675_1_alg».proof.Proof.KernelRun
import proofs.«161494_j36438502539675_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `epi (aggOf (proj x W) edges weights) b gamma beta` of arguments that agree. -/
theorem algebraic : Cert.algebraic_KernelIdeal_ReferenceIdeal := by
  intro m ρ m' ρ' _ hagree
  refine ⟨fun c => Cert.KernelIdeal.Result.result m c, ?_, ?_⟩
  · exact (θ_run Cert.KernelIdeal.defs _ _).mono
      (fun r h c => ⟨(h c).1.trans (Cert.KernelIdeal.Result.W6_result m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v77_eq, h0, h1, h2, h3, h4, h5, h6,
      Cert.ReferenceIdeal.RefValue.val_main_v77_eq_epi, Cert.ReferenceIdeal.RefValue.val_main_v45_eq,
      Cert.ReferenceIdeal.RefValue.val_main_v32_eq]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
